-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x32 : Shape := ⟨2, ![32, 32]⟩
abbrev S262144x32 : Shape := ⟨2, ![262144, 32]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S262144x32 : S_.BroadcastsInDim S262144x32 (![] : Fin 0 → Fin S262144x32.rank)
  reducesTo_S262144x32_S_d0_1 : S262144x32.ReducesTo [0, 1] S_

variable [Facts]

def fn {F : FTy → Type} [FloatOps F] (main_arg0 : FVec F S32x2048x512 .f32) (main_arg1 : FVec F S32x32 .f32) (main_arg2 : FVec F S262144x32 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S262144x32 .f32 := Host.absf main_arg2
  let main_cst_2 : FVec F S_ .f32 := constant S_ .f32 0x7F800000#32
  let main_v10 : FVec F S262144x32 .f32 := broadcastInDim S262144x32 ![] bcast_S_S262144x32 main_cst_2
  let main_v11 : IVec S262144x32 1 := cmpf .olt main_v9 main_v10
  let main_c_3 : IVec S_ 1 := constantI S_ 1 1#1
  let main_v12 : IVec S_ 1 := (fun x v => Host.reduce IntOp.andi x v reducesTo_S262144x32_S_d0_1 h_S_) main_v11 main_c_3
  let main_v13 : IVec S_ 1 := andi main_v8 main_v12
  main_v13
-- ==== Kernel.lean ====
abbrev S32x2048x512 : Shape := ⟨3, ![32, 2048, 512]⟩
abbrev S32x32 : Shape := ⟨2, ![32, 32]⟩
abbrev S262144x32 : Shape := ⟨2, ![262144, 32]⟩
abbrev S32x262144 : Shape := ⟨2, ![32, 262144]⟩
abbrev S8192x32 : Shape := ⟨2, ![8192, 32]⟩
abbrev S32x8192 : Shape := ⟨2, ![32, 8192]⟩
abbrev S32x512x512 : Shape := ⟨3, ![32, 512, 512]⟩
abbrev S1x1024x512 : Shape := ⟨3, ![1, 1024, 512]⟩
abbrev S1x512x512 : Shape := ⟨3, ![1, 512, 512]⟩
abbrev S1024x512 : Shape := ⟨2, ![1024, 512]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S32x2048x512, .f32⟩
  | .hbm, ⟨1, _⟩ => ⟨S32x32, .f32⟩
  | .hbm, ⟨2, _⟩ => ⟨S262144x32, .f32⟩
  | .hbm, ⟨3, _⟩ => ⟨S32x262144, .bf16⟩
  | .hbm, ⟨4, _⟩ => ⟨S32x512x512, .bf16⟩
  | .hbm, ⟨5, _⟩ => ⟨S32x2048x512, .f32⟩
  | .local _ .vmem, ⟨0, _⟩ => ⟨S32x32, .f32⟩
  | .local _ .vmem, ⟨1, _⟩ => ⟨S8192x32, .f32⟩
  | .local _ .vmem, ⟨2, _⟩ => ⟨S8192x32, .f32⟩
  | .local _ .vmem, ⟨3, _⟩ => ⟨S32x8192, .bf16⟩
  | .local _ .vmem, ⟨4, _⟩ => ⟨S32x8192, .bf16⟩
  | .local _ .vmem, ⟨5, _⟩ => ⟨S1x1024x512, .f32⟩
  | .local _ .vmem, ⟨6, _⟩ => ⟨S1x1024x512, .f32⟩
  | .local _ .vmem, ⟨7, _⟩ => ⟨S1x512x512, .bf16⟩
  | .local _ .vmem, ⟨8, _⟩ => ⟨S1x512x512, .bf16⟩
  | .local _ .vmem, ⟨9, _⟩ => ⟨S1x1024x512, .f32⟩
  | .local _ .vmem, ⟨10, _⟩ => ⟨S1x1024x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  inb_S32x8192_S32x8192_0_0 : ∀ a, (![0, 0] : Fin 2 → Nat) a + S32x8192.size a ≤ S32x8192.size a
  h_S32x8192 : 0 < S32x8192.numel
  packedbf16_S32x8192_S32x8192_0_0 : (Rect.unit (s := S32x8192) ![0, 0] S32x8192.size inb_S32x8192_S32x8192_0_0).PackedRows (EltTy.packing .bf16)
  shapeCasts_S32x262144_S32x512x512 : S32x262144.ShapeCasts S32x512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S1024x512_S1x1024x512 : S1024x512.ShapeCasts S1x1024x512
  dot_S32x32_S8192x32_S32x8192_1_1_0_0_n_n_wf : DotDims.WF S32x32 S8192x32 S32x8192 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S32x32.size a
  hwx0_0 : ∀ i : grid0.Coords, EltTy.bits .f32 = 32 ∨ (Rect.block (s := S32x32) S32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S262144x32.size a
  hwx0_1 : ∀ i : grid0.Coords, EltTy.bits .f32 = 32 ∨ (Rect.block (s := S262144x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x8192.size a ≤ S32x262144.size a
  hwx0_2 : ∀ i : grid0.Coords, EltTy.bits .bf16 = 32 ∨ (Rect.block (s := S32x262144) S32x8192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S32x2048x512.size a
  hwx1_0 : ∀ i : grid1.Coords, EltTy.bits .f32 = 32 ∨ (Rect.block (s := S32x2048x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S32x512x512.size a
  hwx1_1 : ∀ i : grid1.Coords, EltTy.bits .bf16 = 32 ∨ (Rect.block (s := S32x512x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x512.size a ≤ S32x2048x512.size a
  hwx1_2 : ∀ i : grid1.Coords, EltTy.bits .f32 = 32 ∨ (Rect.block (s := S32x2048x512) S1x1024x512.size (cc1_transform_2 i) (hinb1_2 i)).WholeWords (EltTy.packing .f32)

variable [Facts₀]

def dot_S32x32_S8192x32_S32x8192_1_1_0_0_n_n : DotDims S32x32 S8192x32 S32x8192 where
  lhsContracting := [1]
  rhsContracting := [1]
  lhsNonContracting := [0]
  rhsNonContracting := [0]
  lhsBatch := []
  rhsBatch := []
  wf := dot_S32x32_S8192x32_S32x8192_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg1) S32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x2048x512 : Shape := ⟨3, ![32, 2048, 512]⟩
abbrev S32x32 : Shape := ⟨2, ![32, 32]⟩
abbrev S262144x32 : Shape := ⟨2, ![262144, 32]⟩
abbrev S32x262144 : Shape := ⟨2, ![32, 262144]⟩
abbrev S32x512x512 : Shape := ⟨3, ![32, 512, 512]⟩

abbrev nBuf : Space → Nat
  | .hbm => 7
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x32, .f32⟩
  | .hbm, ⟨2, _⟩ => ⟨S262144x32, .f32⟩
  | .hbm, ⟨3, _⟩ => ⟨S32x262144, .f32⟩
  | .hbm, ⟨4, _⟩ => ⟨S32x262144, .f32⟩
  | .hbm, ⟨5, _⟩ => ⟨S32x512x512, .f32⟩
  | .hbm, ⟨6, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S262144x32_S32x262144_1_0 : S262144x32.Transposes [1, 0] S32x262144
  shapeCasts_S32x262144_S32x512x512 : S32x262144.ShapeCasts S32x512x512
  dot_S32x32_S32x262144_S32x262144_1_0_0_1_n_n_wf : DotDims.WF S32x32 S32x262144 S32x262144 [1] [0] [0] [1] [] []
  dot_S32x2048x512_S32x512x512_S32x2048x512_2_1_1_2_0_0_wf : DotDims.WF S32x2048x512 S32x512x512 S32x2048x512 [2] [1] [1] [2] [0] [0]

variable [Facts₀]

def dot_S32x32_S32x262144_S32x262144_1_0_0_1_n_n : DotDims S32x32 S32x262144 S32x262144 where
  lhsContracting := [1]
  rhsContracting := [0]
  lhsNonContracting := [0]
  rhsNonContracting := [1]
  lhsBatch := []
  rhsBatch := []
  wf := dot_S32x32_S32x262144_S32x262144_1_0_0_1_n_n_wf
def dot_S32x2048x512_S32x512x512_S32x2048x512_2_1_1_2_0_0 : DotDims S32x2048x512 S32x512x512 S32x2048x512 where
  lhsContracting := [2]
  rhsContracting := [1]
  lhsNonContracting := [1]
  rhsNonContracting := [2]
  lhsBatch := [0]
  rhsBatch := [0]
  wf := dot_S32x2048x512_S32x512x512_S32x2048x512_2_1_1_2_0_0_wf

class Facts : Prop extends Facts₀ where

variable [Facts]
-- ==== Proof.Spec.lean ====
/-
  The function both programs compute, stated once over literal shapes.

  A per-sample weight matrix is generated from the sample's subject row: entry `k` of sample `b`'s flat weight
  vector is the inner product of the subject row `b` with row `k` of the weight table,
      wgen(b, k) = ∑ n, subj(b, n) · W(k, n),
  the flat vector of length 512·512 is read as a 512 × 512 matrix in row-major order, entry (d, e) sitting at
  flat position 512·d + e, and each sample's rows are multiplied by its own matrix:
      Z(b, s, e) = ∑ d, X(b, s, d) · wgen(b, 512·d + e).
  Both sums are finite sums of products on the extended reals, written in this one order on both sides, so no law of
  arithmetic (and no finiteness of the inputs) is needed to compare the two programs with this function.
-/
import Idealize.ShloMosaic.PureOps.Ideal
import Idealize.ShloMosaic.Lib.ValueIdx

noncomputable section

open scoped BigOperators

namespace Cert.SubjectLayer

open Idealize.ShloMosaic Idealize.ShloMosaic.ValueIdx

/-- The flat position of entry (d, e) of a 512 × 512 matrix stored row after row. -/
def flatPos (d e : Fin 512) : Fin 262144 := ⟨d.val * 512 + e.val, by have := d.isLt; have := e.isLt; omega⟩

theorem flatPos_val (d e : Fin 512) : (flatPos d e).val = d.val * 512 + e.val := rfl

/-- Entry `k` of sample `b`'s generated flat weight vector: the subject row against row `k` of the table. -/
def wgen (subj : (⟨2, ![32, 32]⟩ : Shape).Idx → EReal) (W : (⟨2, ![262144, 32]⟩ : Shape).Idx → EReal)
    (b : Fin 32) (k : Fin 262144) : EReal :=
  ∑ n : Fin 32, subj (ix2 b n) * W (ix2 k n)

/-- The generated weights as one flat array [32, 262144]. -/
def wflat (subj : (⟨2, ![32, 32]⟩ : Shape).Idx → EReal) (W : (⟨2, ![262144, 32]⟩ : Shape).Idx → EReal) :
    (⟨2, ![32, 262144]⟩ : Shape).Idx → EReal :=
  fun j => wgen subj W (j 0) (j 1)

/-- Entry (b, s, e) of the result: row `s` of sample `b` against column `e` of the sample's generated matrix. -/
def zAt (X : (⟨3, ![32, 2048, 512]⟩ : Shape).Idx → EReal) (subj : (⟨2, ![32, 32]⟩ : Shape).Idx → EReal)
    (W : (⟨2, ![262144, 32]⟩ : Shape).Idx → EReal) (b : Fin 32) (s : Fin 2048) (e : Fin 512) : EReal :=
  ∑ d : Fin 512, X (ix3 b s d) * wgen subj W b (flatPos d e)

/-- The result as one array [32, 2048, 512] of the three argument arrays. -/
def result (X : (⟨3, ![32, 2048, 512]⟩ : Shape).Idx → EReal) (subj : (⟨2, ![32, 32]⟩ : Shape).Idx → EReal)
    (W : (⟨2, ![262144, 32]⟩ : Shape).Idx → EReal) : (⟨3, ![32, 2048, 512]⟩ : Shape).Idx → EReal :=
  fun j => zAt X subj W (j 0) (j 1) (j 2)

/-- A batched product: sample b's rows of `A` against sample b's 512 × 512 matrix of `B`. -/
def bmm (A : (⟨3, ![32, 2048, 512]⟩ : Shape).Idx → EReal) (B : (⟨3, ![32, 512, 512]⟩ : Shape).Idx → EReal) :
    (⟨3, ![32, 2048, 512]⟩ : Shape).Idx → EReal :=
  fun j => ∑ d : Fin 512, A (ix3 (j 0) (j 1) d) * B (ix3 (j 0) d (j 2))

theorem bmm_ix3 (A : (⟨3, ![32, 2048, 512]⟩ : Shape).Idx → EReal) (B : (⟨3, ![32, 512, 512]⟩ : Shape).Idx → EReal)
    (b : Fin 32) (s : Fin 2048) (e : Fin 512) :
    bmm A B (ix3 b s e) = ∑ d : Fin 512, A (ix3 b s d) * B (ix3 b d e) := rfl

theorem result_ix3 (X : (⟨3, ![32, 2048, 512]⟩ : Shape).Idx → EReal) (subj : (⟨2, ![32, 32]⟩ : Shape).Idx → EReal)
    (W : (⟨2, ![262144, 32]⟩ : Shape).Idx → EReal) (b : Fin 32) (s : Fin 2048) (e : Fin 512) :
    result X subj W (ix3 b s e) = ∑ d : Fin 512, X (ix3 b s d) * wgen subj W b (flatPos d e) := rfl

theorem wflat_ix2 (subj : (⟨2, ![32, 32]⟩ : Shape).Idx → EReal) (W : (⟨2, ![262144, 32]⟩ : Shape).Idx → EReal)
    (b : Fin 32) (k : Fin 262144) : wflat subj W (ix2 b k) = ∑ n : Fin 32, subj (ix2 b n) * W (ix2 k n) := rfl

end Cert.SubjectLayer

end
-- ==== Proof.RefIsSpec.lean ====
/-
  The reference computes the specification.

  Its four host operations, read at an index: the transposed table at (n, k) is the table at (k, n); the first
  product at (b, k) is ∑ n, subj(b, n) · W(k, n); the reshape to [32, 512, 512] reads the flat vector at
  512·d + e, because the row-major position of (b, d, e) in [32, 512, 512] is that of (b, 512·d + e) in [32, 262144];
  the batched product at (b, s, e) sums X(b, s, d) against that entry over d. That is the specification's sum term by
  term.
-/
import proofs.«105937_j28887950033230_2_alg».proof.Proof.Gen.ReferenceIdeal.Read
import proofs.«105937_j28887950033230_2_alg».proof.Proof.Spec

noncomputable section

open scoped BigOperators

namespace Cert.ReferenceIdeal.RefSpec

open Cert.ReferenceIdeal Cert.ReferenceIdeal.Gen Cert.ReferenceIdeal.Read Cert.SubjectLayer
open Idealize.ShloMosaic Idealize.ShloMosaic.ValueIdx

/-- The left operand of the batched product at (b, s, e) and contraction position d is X at (b, s, d). -/
theorem lidx_v3 (b : Fin 32) (s : Fin 2048) (e d : Fin 512) : lidx_main_v3 (ix3 b s e) d = ix3 b s d :=
  funext fun a => Fin.ext (by match a with | ⟨0, _⟩ => rfl | ⟨1, _⟩ => rfl | ⟨2, _⟩ => rfl)

/-- The reshaped weights at (b, d, e) sit at (b, 512·d + e) of the flat array. -/
theorem idx_v2 (b : Fin 32) (s : Fin 2048) (e d : Fin 512) :
    idx_main_v2 (ridx_main_v3 (ix3 b s e) d) = ix2 b (flatPos d e) :=
  funext fun a => Fin.ext (by
    have hb := b.isLt; have hd := d.isLt; have he := e.isLt
    match a with
    | ⟨0, _⟩ => show ((b.val * 512 + d.val) * 512 + e.val) / 262144 = b.val; omega
    | ⟨1, _⟩ => show ((b.val * 512 + d.val) * 512 + e.val) % 262144 = d.val * 512 + e.val; omega)

/-- The first product's left operand at (b, k) and contraction position n is the subject row's entry n. -/
theorem lidx_v1 (b : Fin 32) (k : Fin 262144) (n : Fin 32) : lidx_main_v1 (ix2 b k) n = ix2 b n :=
  funext fun a => Fin.ext (by match a with | ⟨0, _⟩ => rfl | ⟨1, _⟩ => rfl)

/-- Its right operand, the transposed table at (n, k), is the table at (k, n). -/
theorem idx_v0 (b : Fin 32) (k : Fin 262144) (n : Fin 32) : idx_main_v0 (ridx_main_v1 (ix2 b k) n) = ix2 k n :=
  funext fun a => Fin.ext (by match a with | ⟨0, _⟩ => rfl | ⟨1, _⟩ => rfl)

/-- The reference's result array is the specification of its three arguments. -/
theorem ref_eq (x0 : (⟨S32x2048x512, .f32⟩ : BufTy).Contents (Elt Ideal)) (x1 : (⟨S32x32, .f32⟩ : BufTy).Contents (Elt Ideal))
    (x2 : (⟨S262144x32, .f32⟩ : BufTy).Contents (Elt Ideal)) :
    val_main_v3 (F := Ideal) x0 x1 x2 = result x0 x1 x2 := by
  funext j
  obtain ⟨b, s, e, rfl⟩ : ∃ (b : Fin 32) (s : Fin 2048) (e : Fin 512), j = ix3 b s e := ⟨j 0, j 1, j 2, eq_ix3 j⟩
  rw [val_main_v3_apply, result_ix3]
  refine Finset.sum_congr rfl fun d _ => ?_
  rw [val_main_v2_apply, lidx_v3, idx_v2, val_main_v1_apply]
  refine congrArg (x0 (ix3 b s d) * ·) ?_
  show _ = ∑ n : Fin 32, x1 (ix2 b n) * x2 (ix2 (flatPos d e) n)
  refine Finset.sum_congr rfl fun n _ => ?_
  rw [val_main_v0_apply, lidx_v1, idx_v0]

end Cert.ReferenceIdeal.RefSpec

end
-- ==== Proof.WeightGen.lean ====
/-
  The first kernel: the generated flat weights as one array.

  The kernel runs over 32 grid points. Point `t` holds the whole subject array [32, 32], rows 8192·t … 8192·t + 8191
  of the weight table, and writes columns 8192·t … 8192·t + 8191 of the flat weight array [32, 262144]. Its body
  contracts the last axis of both blocks into a zero accumulator, so the block entry (p, q) is
  ∑ n, subj(p, n) · W(8192·t + q, n): the entry (p, 8192·t + q) of the specification's flat weights. The 32 column
  blocks tile the array, so after the kernel the whole array is the specification's flat weights of the arrays the
  kernel found on entry. Everything is stated at any entry contents `V`.
-/
import proofs.«105937_j28887950033230_2_alg».proof.Proof.Gen.KernelIdeal.Frame
import proofs.«105937_j28887950033230_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.WeightGen

open Cert.KernelIdeal Cert.KernelIdeal.Gen Cert.SubjectLayer
open Idealize.ShloMosaic Idealize.ShloMosaic.TcCoe Idealize.ShloMosaic.ValueIdx Idealize.SL.Sem

/-- The body's contraction: the last axis of the subject block against the last axis of the table block. -/
abbrev D0 : DotDims S32x32 S8192x32 S32x8192 := dot_S32x32_S8192x32_S32x8192_1_1_0_0_n_n

theorem hz : (![0, 0] : Fin 2 → Nat) = fun _ => 0 := funext fun a => by fin_cases a <;> rfl

/-! ## The contraction's operand positions -/

theorem lhs_row (i : S32x8192.Idx) (k : D0.contr.Idx) : (D0.lhsIdx i k 0).val = (i 0).val := by
  unfold DotDims.lhsIdx
  rw [dif_neg (show ¬(0 : Fin S32x32.rank) ∈ D0.lhsBatch by decide), dif_pos (show (0 : Fin S32x32.rank) ∈ D0.lhsNonContracting by decide)]
  rfl
theorem lhs_contr (i : S32x8192.Idx) (k : D0.contr.Idx) : (D0.lhsIdx i k 1).val = (k ⟨0, by decide⟩).val :=
  D0.lhsIdx_val_of_single rfl i k
theorem rhs_row (i : S32x8192.Idx) (k : D0.contr.Idx) : (D0.rhsIdx i k 0).val = (i 1).val := by
  unfold DotDims.rhsIdx
  rw [dif_neg (show ¬(0 : Fin S8192x32.rank) ∈ D0.rhsBatch by decide), dif_pos (show (0 : Fin S8192x32.rank) ∈ D0.rhsNonContracting by decide)]
  rfl
theorem rhs_contr (i : S32x8192.Idx) (k : D0.contr.Idx) : (D0.rhsIdx i k 1).val = (k ⟨0, by decide⟩).val :=
  D0.rhsIdx_val_of_single rfl i k

/-! ## The body's stored value at an entry -/

/-- Entry (p, q) of what the body stores is the inner product of row p of the first block with row q of the second
    (the rounding steps are the identity on the extended reals, the accumulator is zero). -/
theorem stored_apply (x0 : FVec Ideal S32x32 .f32) (x1 : FVec Ideal S8192x32 .f32) (p : Fin 32) (q : Fin 8192) :
    k0_pay1 (F := Ideal) x0 x1 (ix2 p q) = ∑ n : Fin 32, x0 (ix2 p n) * x1 (ix2 q n) := by
  unfold k0_pay1
  show FloatOps.matmul D0 none (truncf .bf16 x0 bitsLt_bf16_f32) (truncf .bf16 x1 bitsLt_bf16_f32)
    (constant S32x8192 .f32 0x00000000#32) (ix2 p q) = _
  refine (Ideal.matmul_constant_zero_apply D0 none _ _ (ix2 p q)).trans ?_
  rw [← Equiv.sum_comp (contrEquiv1 D0 32 rfl rfl).symm]
  refine Finset.sum_congr rfl fun n _ => ?_
  have hn := contrEquiv1_symm_val D0 32 rfl rfl n
  have el : D0.lhsIdx (ix2 p q) ((contrEquiv1 D0 32 rfl rfl).symm n) = ix2 p n := funext fun a => Fin.ext (by
    match a with
    | ⟨0, _⟩ => exact lhs_row _ _
    | ⟨1, _⟩ => exact (lhs_contr _ _).trans hn)
  have er : D0.rhsIdx (ix2 p q) ((contrEquiv1 D0 32 rfl rfl).symm n) = ix2 q n := funext fun a => Fin.ext (by
    match a with
    | ⟨0, _⟩ => exact rhs_row _ _
    | ⟨1, _⟩ => exact (rhs_contr _ _).trans hn)
  rw [el, er]
  rfl

/-! ## The blocks of a grid point -/

variable (V : (c : Dev nD) → (b : Ref sig .tc) → Buf (Elt Ideal) ((c : Thread nD τ).loc b))

/-- The three windows' block numbers at a point: the subject block is always the whole array, the table block's row
    number is the output block's column number, and that number is the point's. -/
theorem block_numbers : ∀ t : Fin cfg0.N, win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) ≤ 31 :=
  (by decide +kernel : ∀ t : Fin grid0.N, _)

/-- Every column block is some point's. -/
theorem block_onto : ∀ q : Fin 32, ∃ t : Fin cfg0.N, win0_2.index t = ![0, q.val] :=
  (by decide +kernel : ∀ q : Fin 32, ∃ t : Fin grid0.N, win0_2.index t = ![0, q.val])

/-- What point `t` writes back is block `t` of the flat weights of the arrays found on entry. -/
theorem flushed_eq (c : Dev nD) (t : Fin cfg0.N) :
    (dat0 V c).flushed 2 t
      = ((cfg0.win 2).blk t).view.read (Elt Ideal) (wflat (V c main_arg1) (V c main_arg2)) := by
  show (cfg0.win 2).cut (grid0.coords t) ((dat0 V c).after 2 t) = _
  rw [after0_2]
  unfold out0_2
  rw [View.canon_unit_zero hz]
  simp only [View.ld_unit_zero (S := S32x32) hz, View.ld_unit_zero (S := S8192x32) hz]
  obtain ⟨e0, e1, e2, e3, e4, e5⟩ := block_numbers t
  funext y
  obtain ⟨p, q, rfl⟩ : ∃ (p : Fin 32) (q : Fin 8192), y = ix2 p q := ⟨y 0, y 1, eq_ix2 y⟩
  refine (stored_apply (iblk0 V c 0 t) (iblk0 V c 1 t) p q).trans ?_
  have hq := q.isLt
  have hout : ((cfg0.win 2).blk t).view.emb (ix2 p q)
      = ix2 p (⟨win0_2.index t (1 : Fin 2) * 8192 + q.val, by omega⟩ : Fin 262144) := by
    funext a; apply Fin.ext
    match a with
    | ⟨0, _⟩ => show win0_2.index t (0 : Fin 2) * 32 + 1 * p.val = p.val; omega
    | ⟨1, _⟩ => show win0_2.index t (1 : Fin 2) * 8192 + 1 * q.val = win0_2.index t (1 : Fin 2) * 8192 + q.val; omega
  show _ = wflat (V c main_arg1) (V c main_arg2) (((cfg0.win 2).blk t).view.emb (ix2 p q))
  rw [hout, wflat_ix2]
  refine Finset.sum_congr rfl fun n _ => ?_
  have hsub : ((cfg0.win 0).blk t).view.emb (ix2 p n) = ix2 p n := by
    funext a; apply Fin.ext
    match a with
    | ⟨0, _⟩ => show win0_0.index t (0 : Fin 2) * 32 + 1 * p.val = p.val; omega
    | ⟨1, _⟩ => show win0_0.index t (1 : Fin 2) * 32 + 1 * n.val = n.val; omega
  have htab : ((cfg0.win 1).blk t).view.emb (ix2 q n)
      = ix2 (⟨win0_2.index t (1 : Fin 2) * 8192 + q.val, by omega⟩ : Fin 262144) n := by
    funext a; apply Fin.ext
    match a with
    | ⟨0, _⟩ => show win0_1.index t (0 : Fin 2) * 8192 + 1 * q.val = win0_2.index t (1 : Fin 2) * 8192 + q.val; omega
    | ⟨1, _⟩ => show win0_1.index t (1 : Fin 2) * 32 + 1 * n.val = n.val; omega
  have key : ∀ (A : S32x32.Idx → EReal) (B : S262144x32.Idx → EReal),
      A (((cfg0.win 0).blk t).view.emb (ix2 p n)) * B (((cfg0.win 1).blk t).view.emb (ix2 q n))
        = A (ix2 p n) * B (ix2 (⟨win0_2.index t (1 : Fin 2) * 8192 + q.val, by omega⟩ : Fin 262144) n) :=
    fun A B => by rw [hsub, htab]
  exact key (V c main_arg1) (V c main_arg2)

/-- An index of the flat array is in point `t`'s block iff each coordinate is in the block's range on its axis. -/
theorem mem_blk (t : Fin cfg0.N) (i : S32x262144.Idx) :
    i ∈ ((cfg0.win 2).blk t).view.set ↔ ∀ a : Fin 2, win0_2.index t a * S32x8192.size a ≤ (i a).val ∧ (i a).val < win0_2.index t a * S32x8192.size a + S32x8192.size a := by
  show i ∈ ((View.whole main_v0).slice (win0_2.rect t)).set ↔ _
  rw [View.set_slice_whole, Rect.mem_set_unit]
  exact Iff.rfl

/-- Column k of the flat array lies in the block numbered k / 8192. -/
theorem covered (i : S32x262144.Idx) :
    ∃ t : Fin cfg0.N, (cfg0.win 2).flush t = true ∧ i ∈ ((cfg0.win 2).blk t).view.set := by
  have hi0 : (i 0).val < 32 := (i 0).isLt
  have hi1 : (i 1).val < 262144 := (i 1).isLt
  obtain ⟨t, ht⟩ := block_onto ⟨(i 1).val / 8192, by omega⟩
  have q0 : win0_2.index t (0 : Fin 2) = 0 := congrFun ht 0
  have q1 : win0_2.index t (1 : Fin 2) = (i 1).val / 8192 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 8192 ≤ (i 1).val ∧ (i 1).val < win0_2.index t (1 : Fin 2) * 8192 + 8192; omega

/-- After the kernel the flat weight array holds the specification's flat weights of the subject array and the
    table as the kernel found them. -/
theorem array_eq (c : Dev nD) :
    (dat0 V c).arrAt 2 cfg0.N = wflat (V c main_arg1) (V c main_arg2) :=
  (dat0 V c).arrAt_eq_of_cover 2 _ (fun t _ => flushed_eq V c t) covered

end Cert.KernelIdeal.WeightGen

end
-- ==== Proof.BatchedProduct.lean ====
/-
  The second kernel: each sample's rows against its own weight matrix, as one array.

  The kernel runs over 32 × 2 grid points (sample b, half h of the 2048 rows). A point holds rows
  1024·h … 1024·h + 1023 of sample b's input [1, 1024, 512], the whole weight matrix of sample b [1, 512, 512], and
  writes the same rows of the result. The body drops the unit axis of both blocks, multiplies the 1024 × 512 block by
  the 512 × 512 matrix into a zero accumulator and puts the unit axis back, so block entry (0, r, e) is
  ∑ d, A(b, 1024·h + r, d) · B(b, d, e). The 64 blocks tile the result array, so after the kernel it is the batched
  product of the two arrays the kernel found on entry. Everything is stated at any entry contents `V`.
-/
import proofs.«105937_j28887950033230_2_alg».proof.Proof.Gen.KernelIdeal.Frame
import proofs.«105937_j28887950033230_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.BatchedProduct

open Cert.KernelIdeal Cert.KernelIdeal.Gen Cert.SubjectLayer
open Idealize.ShloMosaic Idealize.ShloMosaic.TcCoe Idealize.ShloMosaic.ValueIdx Idealize.SL.Sem

/-- The body's contraction: the columns of the row block against the rows of the weight matrix. -/
abbrev D1 : DotDims S1024x512 S512x512 S1024x512 := dot_S1024x512_S512x512_S1024x512_1_0_0_1_n_n

theorem hz : (![0, 0, 0] : Fin 3 → Nat) = fun _ => 0 := funext fun a => by fin_cases a <;> rfl

/-! ## The contraction's operand positions -/

theorem lhs_row (i : S1024x512.Idx) (k : D1.contr.Idx) : (D1.lhsIdx i k 0).val = (i 0).val := by
  unfold DotDims.lhsIdx
  rw [dif_neg (show ¬(0 : Fin S1024x512.rank) ∈ D1.lhsBatch by decide), dif_pos (show (0 : Fin S1024x512.rank) ∈ D1.lhsNonContracting by decide)]
  rfl
theorem lhs_contr (i : S1024x512.Idx) (k : D1.contr.Idx) : (D1.lhsIdx i k 1).val = (k ⟨0, by decide⟩).val :=
  D1.lhsIdx_val_of_single rfl i k
theorem rhs_contr (i : S1024x512.Idx) (k : D1.contr.Idx) : (D1.rhsIdx i k 0).val = (k ⟨0, by decide⟩).val :=
  D1.rhsIdx_val_of_single rfl i k
theorem rhs_col (i : S1024x512.Idx) (k : D1.contr.Idx) : (D1.rhsIdx i k 1).val = (i 1).val := by
  unfold DotDims.rhsIdx
  rw [dif_neg (show ¬(1 : Fin S512x512.rank) ∈ D1.rhsBatch by decide), dif_pos (show (1 : Fin S512x512.rank) ∈ D1.rhsNonContracting by decide)]
  rfl

/-! ## The body's stored value at an entry -/

/-- A [1, 1024, 512] block viewed as [1024, 512] reads (r, d) at (0, r, d). -/
theorem rows_apply (x0 : FVec Ideal S1x1024x512 .f32) (r : Fin 1024) (d : Fin 512) :
    shapeCast S1024x512 x0 shapeCasts_S1x1024x512_S1024x512 (ix2 r d) = x0 (ix3 (0 : Fin 1) r d) :=
  shapeCast_apply x0 shapeCasts_S1x1024x512_S1024x512 (ix2 r d) (ix3 (0 : Fin 1) r d) (by
    rw [Shape.rowMajor_val_three, Shape.rowMajor_val_two]
    show (0 * 1024 + r.val) * 512 + d.val = r.val * 512 + d.val
    omega)

/-- A [1, 512, 512] block viewed as [512, 512] reads (d, e) at (0, d, e). -/
theorem matrix_apply (x1 : FVec Ideal S1x512x512 .bf16) (d e : Fin 512) :
    shapeCast S512x512 x1 shapeCasts_S1x512x512_S512x512 (ix2 d e) = x1 (ix3 (0 : Fin 1) d e) :=
  shapeCast_apply x1 shapeCasts_S1x512x512_S512x512 (ix2 d e) (ix3 (0 : Fin 1) d e) (by
    rw [Shape.rowMajor_val_three, Shape.rowMajor_val_two]
    show (0 * 512 + d.val) * 512 + e.val = d.val * 512 + e.val
    omega)

/-- Entry (0, r, e) of what the body stores is row r of the row block against column e of the matrix
    (the rounding step is the identity on the extended reals, the accumulator is zero). -/
theorem stored_apply (x0 : FVec Ideal S1x1024x512 .f32) (x1 : FVec Ideal S1x512x512 .bf16) (z : Fin 1) (r : Fin 1024) (e : Fin 512) :
    k1_pay1 (F := Ideal) x0 x1 (ix3 z r e) = ∑ d : Fin 512, x0 (ix3 (0 : Fin 1) r d) * x1 (ix3 (0 : Fin 1) d e) := by
  unfold k1_pay1
  refine (shapeCast_apply _ shapeCasts_S1024x512_S1x1024x512 (ix3 z r e) (ix2 r e) (by
    rw [Shape.rowMajor_val_three, Shape.rowMajor_val_two]
    show r.val * 512 + e.val = (z.val * 1024 + r.val) * 512 + e.val
    have := z.isLt
    omega)).trans ?_
  show FloatOps.matmul D1 none (truncf .bf16 (shapeCast S1024x512 x0 shapeCasts_S1x1024x512_S1024x512) bitsLt_bf16_f32)
    (shapeCast S512x512 x1 shapeCasts_S1x512x512_S512x512) (constant S1024x512 .f32 0x00000000#32) (ix2 r e) = _
  refine (Ideal.matmul_constant_zero_apply D1 none _ _ (ix2 r e)).trans ?_
  rw [← Equiv.sum_comp (contrEquiv1 D1 512 rfl rfl).symm]
  refine Finset.sum_congr rfl fun d _ => ?_
  have hd := contrEquiv1_symm_val D1 512 rfl rfl d
  have el : D1.lhsIdx (ix2 r e) ((contrEquiv1 D1 512 rfl rfl).symm d) = ix2 r d := funext fun a => Fin.ext (by
    match a with
    | ⟨0, _⟩ => exact lhs_row _ _
    | ⟨1, _⟩ => exact (lhs_contr _ _).trans hd)
  have er : D1.rhsIdx (ix2 r e) ((contrEquiv1 D1 512 rfl rfl).symm d) = ix2 d e := funext fun a => Fin.ext (by
    match a with
    | ⟨0, _⟩ => exact (rhs_contr _ _).trans hd
    | ⟨1, _⟩ => exact rhs_col _ _)
  rw [el, er]
  show shapeCast S1024x512 x0 shapeCasts_S1x1024x512_S1024x512 (ix2 r d)
    * shapeCast S512x512 x1 shapeCasts_S1x512x512_S512x512 (ix2 d e) = _
  rw [rows_apply, matrix_apply]

/-! ## The blocks of a grid point -/

variable (V : (c : Dev nD) → (b : Ref sig .tc) → Buf (Elt Ideal) ((c : Thread nD τ).loc b))

/-- The three windows' block numbers at a point: the row block and the result block move together (sample, half),
    the matrix block is the sample's, and no block moves along the last axis. -/
theorem block_numbers : ∀ t : Fin cfg1.N, win1_0.index t (0 : Fin 3) = win1_2.index t (0 : Fin 3)
    ∧ win1_0.index t (1 : Fin 3) = win1_2.index t (1 : Fin 3) ∧ win1_0.index t (2 : Fin 3) = 0
    ∧ win1_1.index t (0 : Fin 3) = win1_2.index t (0 : Fin 3) ∧ win1_1.index t (1 : Fin 3) = 0
    ∧ win1_1.index t (2 : Fin 3) = 0 ∧ win1_2.index t (2 : Fin 3) = 0
    ∧ win1_2.index t (0 : Fin 3) ≤ 31 ∧ win1_2.index t (1 : Fin 3) ≤ 1 :=
  (by decide +kernel : ∀ t : Fin grid1.N, _)

/-- Every (sample, half) block is some point's. -/
theorem block_onto : ∀ (q0 : Fin 32) (q1 : Fin 2), ∃ t : Fin cfg1.N, win1_2.index t = ![q0.val, q1.val, 0] :=
  (by decide +kernel : ∀ (q0 : Fin 32) (q1 : Fin 2), ∃ t : Fin grid1.N, win1_2.index t = ![q0.val, q1.val, 0])

/-- What point `t` writes back is block `t` of the batched product of the arrays found on entry. -/
theorem flushed_eq (c : Dev nD) (t : Fin cfg1.N) :
    (dat1 V c).flushed 2 t
      = ((cfg1.win 2).blk t).view.read (Elt Ideal) (bmm (V c main_arg0) (V c main_v1)) := by
  show (cfg1.win 2).cut (grid1.coords t) ((dat1 V c).after 2 t) = _
  rw [after1_2]
  unfold out1_2
  rw [View.canon_unit_zero hz]
  simp only [View.ld_unit_zero (S := S1x1024x512) hz, View.ld_unit_zero (S := S1x512x512) hz]
  obtain ⟨e0, e1, e2, e3, e4, e5, e6, e7, e8⟩ := block_numbers t
  funext y
  obtain ⟨z, r, e, rfl⟩ : ∃ (z : Fin 1) (r : Fin 1024) (e : Fin 512), y = ix3 z r e := ⟨y 0, y 1, y 2, eq_ix3 y⟩
  refine (stored_apply (iblk1 V c 0 t) (iblk1 V c 1 t) z r e).trans ?_
  have hz' := z.isLt
  have hr := r.isLt
  have hout : ((cfg1.win 2).blk t).view.emb (ix3 z r e)
      = ix3 (⟨win1_2.index t (0 : Fin 3), by omega⟩ : Fin 32)
          (⟨win1_2.index t (1 : Fin 3) * 1024 + r.val, by omega⟩ : Fin 2048) e := by
    funext a; apply Fin.ext
    match a with
    | ⟨0, _⟩ => show win1_2.index t (0 : Fin 3) * 1 + 1 * z.val = win1_2.index t (0 : Fin 3); omega
    | ⟨1, _⟩ => show win1_2.index t (1 : Fin 3) * 1024 + 1 * r.val = win1_2.index t (1 : Fin 3) * 1024 + r.val; omega
    | ⟨2, _⟩ => show win1_2.index t (2 : Fin 3) * 512 + 1 * e.val = e.val; omega
  show _ = bmm (V c main_arg0) (V c main_v1) (((cfg1.win 2).blk t).view.emb (ix3 z r e))
  rw [hout, bmm_ix3]
  refine Finset.sum_congr rfl fun d _ => ?_
  have hrows : ((cfg1.win 0).blk t).view.emb (ix3 (0 : Fin 1) r d)
      = ix3 (⟨win1_2.index t (0 : Fin 3), by omega⟩ : Fin 32)
          (⟨win1_2.index t (1 : Fin 3) * 1024 + r.val, by omega⟩ : Fin 2048) d := by
    funext a; apply Fin.ext
    match a with
    | ⟨0, _⟩ => show win1_0.index t (0 : Fin 3) * 1 + 1 * 0 = win1_2.index t (0 : Fin 3); omega
    | ⟨1, _⟩ => show win1_0.index t (1 : Fin 3) * 1024 + 1 * r.val = win1_2.index t (1 : Fin 3) * 1024 + r.val; omega
    | ⟨2, _⟩ => show win1_0.index t (2 : Fin 3) * 512 + 1 * d.val = d.val; omega
  have hmat : ((cfg1.win 1).blk t).view.emb (ix3 (0 : Fin 1) d e)
      = ix3 (⟨win1_2.index t (0 : Fin 3), by omega⟩ : Fin 32) d e := by
    funext a; apply Fin.ext
    match a with
    | ⟨0, _⟩ => show win1_1.index t (0 : Fin 3) * 1 + 1 * 0 = win1_2.index t (0 : Fin 3); omega
    | ⟨1, _⟩ => show win1_1.index t (1 : Fin 3) * 512 + 1 * d.val = d.val; omega
    | ⟨2, _⟩ => show win1_1.index t (2 : Fin 3) * 512 + 1 * e.val = e.val; omega
  have key : ∀ (A : S32x2048x512.Idx → EReal) (B : S32x512x512.Idx → EReal),
      A (((cfg1.win 0).blk t).view.emb (ix3 (0 : Fin 1) r d)) * B (((cfg1.win 1).blk t).view.emb (ix3 (0 : Fin 1) d e))
        = A (ix3 (⟨win1_2.index t (0 : Fin 3), by omega⟩ : Fin 32)
              (⟨win1_2.index t (1 : Fin 3) * 1024 + r.val, by omega⟩ : Fin 2048) d)
          * B (ix3 (⟨win1_2.index t (0 : Fin 3), by omega⟩ : Fin 32) d e) :=
    fun A B => by rw [hrows, hmat]
  exact key (V c main_arg0) (V c main_v1)

/-- An index of the result array is in point `t`'s block iff each coordinate is in the block's range on its axis. -/
theorem mem_blk (t : Fin cfg1.N) (i : S32x2048x512.Idx) :
    i ∈ ((cfg1.win 2).blk t).view.set ↔ ∀ a : Fin 3, win1_2.index t a * S1x1024x512.size a ≤ (i a).val ∧ (i a).val < win1_2.index t a * S1x1024x512.size a + S1x1024x512.size a := by
  show i ∈ ((View.whole main_v2).slice (win1_2.rect t)).set ↔ _
  rw [View.set_slice_whole, Rect.mem_set_unit]
  exact Iff.rfl

/-- Entry (b, s, e) of the result lies in the block of sample b and half s / 1024. -/
theorem covered (i : S32x2048x512.Idx) :
    ∃ t : Fin cfg1.N, (cfg1.win 2).flush t = true ∧ i ∈ ((cfg1.win 2).blk t).view.set := by
  have hi0 : (i 0).val < 32 := (i 0).isLt
  have hi1 : (i 1).val < 2048 := (i 1).isLt
  have hi2 : (i 2).val < 512 := (i 2).isLt
  obtain ⟨t, ht⟩ := block_onto ⟨(i 0).val, by omega⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 512 ≤ (i 2).val ∧ (i 2).val < win1_2.index t (2 : Fin 3) * 512 + 512; omega

/-- After the kernel the result array holds the batched product of the input array and the weight array as the
    kernel found them. -/
theorem array_eq (c : Dev nD) :
    (dat1 V c).arrAt 2 cfg1.N = bmm (V c main_arg0) (V c main_v1) :=
  (dat1 V c).arrAt_eq_of_cover 2 _ (fun t _ => flushed_eq V c t) covered

end Cert.KernelIdeal.BatchedProduct

end
-- ==== Proof.KernelRun.lean ====
/-
  The kernel program's run with its result named.

  The program is three segments: the weight-generation kernel, one host reshape, the batched-product kernel. The
  generated segments carry the contents of every buffer that outlives a kernel from boundary to boundary; after the
  last segment those contents are `W3`. Read against the final state this gives, for the result buffer as for each
  argument, "the final memory holds `W3` there"; the arguments walk back to the launch memory. So every weakly fair
  execution terminates, without a fault, with the result buffer at `W3`'s contents and the arguments unchanged.
-/
import proofs.«105937_j28887950033230_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer holding what the
    last segment boundary holds there and the three arguments as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Run

end
-- ==== Proof.KernelValue.lean ====
/-
  The kernel program's result is the specification of its arguments.

  Walking the program's three segments: the first kernel finds the subject array and the weight table as launched and
  leaves the specification's flat weights in the flat array; the host reshape reads that array as [32, 512, 512],
  entry (b, d, e) from flat position (b, 512·d + e), the two having one row-major position; the second kernel finds the
  input array as launched (nothing before it writes there) and that reshaped array, and leaves their batched product.
  A batched product against the reshaped flat weights is the specification, sum for sum.
-/
import proofs.«105937_j28887950033230_2_alg».proof.Proof.WeightGen
import proofs.«105937_j28887950033230_2_alg».proof.Proof.BatchedProduct
import proofs.«105937_j28887950033230_2_alg».proof.Proof.KernelRun
import Idealize.ShloMosaic.Lib.StableHlo.Run
import Idealize.ShloMosaic.Lib.Pipeline.Value

set_option maxRecDepth 16384

noncomputable section

open scoped BigOperators

namespace Cert.KernelIdeal.Whole

open Cert.KernelIdeal Cert.KernelIdeal.Gen Cert.SubjectLayer
open Idealize.ShloMosaic Idealize.ShloMosaic.TcCoe Idealize.ShloMosaic.ValueIdx Idealize.SL.Sem
open Idealize.ShloMosaic.StableHlo

/-! ## The reshape between the kernels, and the specification through it -/

/-- The flat weights read as [32, 512, 512]: entry (b, d, e) is flat entry (b, 512·d + e). -/
theorem reshaped_apply (wf : S32x262144.Idx → EReal) (b : Fin 32) (d e : Fin 512) :
    shapeCast S32x512x512 wf shapeCasts_S32x262144_S32x512x512 (ix3 b d e) = wf (ix2 b (flatPos d e)) :=
  shapeCast_apply wf shapeCasts_S32x262144_S32x512x512 (ix3 b d e) (ix2 b (flatPos d e)) (by
    rw [Shape.rowMajor_val_two, Shape.rowMajor_val_three]
    show b.val * 262144 + (d.val * 512 + e.val) = (b.val * 512 + d.val) * 512 + e.val
    omega)

/-- The batched product of the input with the reshaped flat weights is the specification. -/
theorem bmm_reshaped (X : S32x2048x512.Idx → EReal) (subj : S32x32.Idx → EReal) (W : S262144x32.Idx → EReal) :
    bmm X (shapeCast S32x512x512 (wflat subj W) shapeCasts_S32x262144_S32x512x512) = result X subj W := by
  funext j
  obtain ⟨b, s, e, rfl⟩ : ∃ (b : Fin 32) (s : Fin 2048) (e : Fin 512), j = ix3 b s e := ⟨j 0, j 1, j 2, eq_ix3 j⟩
  rw [bmm_ix3, result_ix3]
  refine Finset.sum_congr rfl fun d _ => ?_
  rw [reshaped_apply]
  rfl

/-! ## The segments' boundary contents -/

variable (m : (ℓ : Loc nD τ sig) → Buf (Elt Ideal) ℓ) (ρ : Dev nD → PrngReg)

/-- The second kernel finds the input array as launched. -/
theorem entry_input (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- After the first kernel the flat array holds the specification's flat weights of the launched subject array and table. -/
theorem flat_weights (c : Dev nD) :
    W1 m ρ c (Proc.devRef .tc main_v0)
      = wflat (m ((c : Thread nD τ).loc main_arg1)) (m ((c : Thread nD τ).loc main_arg2)) :=
  (W1_arr m ρ c 2).trans (WeightGen.array_eq (V0 m ρ) c)

/-- The second kernel finds, as its weight array, the flat array read as [32, 512, 512]. -/
theorem entry_weights (c : Dev nD) :
    V2 m ρ c main_v1
      = shapeCast S32x512x512 (W1 m ρ c (Proc.devRef .tc main_v0)) shapeCasts_S32x262144_S32x512x512 := by
  show StableHlo.after hostOps1 (W1 m ρ c) (Proc.devRef .tc main_v1) = _
  after_results
  rfl

/-- The result buffer at the last boundary is the specification of the launched arguments. -/
theorem result_eq (c : Dev nD) :
    W3 m ρ c (Proc.devRef .tc main_v2)
      = result (m ((c : Thread nD τ).loc main_arg0)) (m ((c : Thread nD τ).loc main_arg1)) (m ((c : Thread nD τ).loc main_arg2)) := by
  refine (W3_arr m ρ c 2).trans ((BatchedProduct.array_eq (V2 m ρ) c).trans ?_)
  rw [entry_input m ρ c, entry_weights m ρ c, flat_weights m ρ c]
  exact bmm_reshaped _ _ _

/-! ## The run -/

/-- Every weakly fair execution of the kernel program terminates, nothing faulting, with the result buffer at the
    specification of the launched arguments and the arguments unchanged. -/
theorem run : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Run.run_named m ρ)

end Cert.KernelIdeal.Whole

end
-- ==== Proof.lean ====
/-
  A per-subject linear layer: the kernel program against its reference, on the extended reals.

  Both programs compute, for 32 samples, Z(b, s, e) = ∑ d, X(b, s, d) · (∑ n, subj(b, n) · W(512·d + e, n)): each
  sample's 512 × 512 weight matrix is the sample's subject row against the weight table, read row-major from a flat
  vector of length 262144, and the sample's 2048 rows are multiplied by it (Proof/Spec.lean).
  The kernel program does it in two tiled kernels with a host reshape between them: the first writes the flat
  weights, 8192 columns per grid point (Proof/WeightGen.lean); the second multiplies 1024 rows of one sample by that
  sample's matrix per grid point (Proof/BatchedProduct.lean); the boundaries are joined in Proof/KernelValue.lean over
  the run of Proof/KernelRun.lean. The roundings to bf16 are the identity on the extended reals and both products
  accumulate into zero. The reference transposes the table, multiplies, reshapes and multiplies again
  (Proof/RefIsSpec.lean). The two programs add the same products in the same arrangement, so no finiteness of the
  inputs is used: the precondition is never opened.
  The three frames are the generated ones (the reference's is its generated run with the result dropped); the
  idealization rewrote nothing, so there is nothing to preserve.
-/
import proofs.«105937_j28887950033230_2_alg».proof.Defs
import proofs.«105937_j28887950033230_2_alg».proof.Proof.Gen.Kernel
import proofs.«105937_j28887950033230_2_alg».proof.Proof.Gen.Kernel.Skeleton
import proofs.«105937_j28887950033230_2_alg».proof.Proof.Gen.Kernel.Launch
import proofs.«105937_j28887950033230_2_alg».proof.Proof.Gen.Kernel.Points
import proofs.«105937_j28887950033230_2_alg».proof.Proof.Gen.Kernel.Frame
import proofs.«105937_j28887950033230_2_alg».proof.Proof.Gen.KernelIdeal
import proofs.«105937_j28887950033230_2_alg».proof.Proof.Gen.KernelIdeal.Skeleton
import proofs.«105937_j28887950033230_2_alg».proof.Proof.Gen.KernelIdeal.Launch
import proofs.«105937_j28887950033230_2_alg».proof.Proof.Gen.KernelIdeal.Points
import proofs.«105937_j28887950033230_2_alg».proof.Proof.Gen.KernelIdeal.Frame
import proofs.«105937_j28887950033230_2_alg».proof.Proof.Gen.ReferenceIdeal
import proofs.«105937_j28887950033230_2_alg».proof.Proof.Gen.Pre_finite_inputs
import proofs.«105937_j28887950033230_2_alg».proof.Proof.Gen.ReferenceIdeal.Run
import proofs.«105937_j28887950033230_2_alg».proof.Proof.Gen.ReferenceIdeal.Read
import proofs.«105937_j28887950033230_2_alg».proof.Proof.RefIsSpec
import proofs.«105937_j28887950033230_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at the specification of those
    arguments: the kernel program by its run through the two kernels, the reference by its four host operations. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.ReferenceIdeal.RefSpec.ref_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
